-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S64x40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x64 .f32) (main_arg3 : FVec F S64 .f32) (main_arg4 : FVec F S128x64 .f32) (main_arg5 : FVec F S64x40 .f32) (main_arg6 : FVec F S40 .f32) (main_arg7 : FVec F S64x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S600000x64 : Shape := ⟨2, ![600000, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 50
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S100000x128, .f32⟩
  | .hbm, ⟨29, _⟩ => ⟨S600000x1, .i32⟩
  | .hbm, ⟨30, _⟩ => ⟨S100000x128, .f32⟩
  | .hbm, ⟨31, _⟩ => ⟨S100000x1, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x64, .f32⟩
  | .hbm, ⟨43, _⟩ => ⟨S_, .f32⟩
  | .hbm, ⟨44, _⟩ => ⟨S100000x64, .f32⟩
  | .hbm, ⟨45, _⟩ => ⟨S600000x1, .i32⟩
  | .hbm, ⟨46, _⟩ => ⟨S100000x64, .f32⟩
  | .hbm, ⟨47, _⟩ => ⟨S100000x1, .f32⟩
  | .hbm, ⟨48, _⟩ => ⟨S1x40, .f32⟩
  | .hbm, ⟨49, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x40, .f32⟩
  | .local _ .vmem, ⟨18, _⟩ => ⟨S1x40, .f32⟩
  | .local _ .vmem, ⟨19, _⟩ => ⟨S64x40, .f32⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S40_S1x40 : S40.ShapeCasts S1x40
  shapeCasts_S5000x64_S5000x64 : S5000x64.ShapeCasts S5000x64
  broadcasts_S5000x1_S5000x64 : S5000x1.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .f32 = 32 ∨ (Rect.block (s := S64x40) S64x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩
abbrev S100000x40 : Shape := ⟨2, ![100000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S1x600000, .i32⟩
  | .hbm, ⟨52, _⟩ => ⟨S600000, .i32⟩
  | .hbm, ⟨53, _⟩ => ⟨S1x600000, .i32⟩
  | .hbm, ⟨54, _⟩ => ⟨S600000, .i32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x64, .f32⟩
  | .hbm, ⟨64, _⟩ => ⟨S_, .f32⟩
  | .hbm, ⟨65, _⟩ => ⟨S100000x64, .f32⟩
  | .hbm, ⟨66, _⟩ => ⟨S600000x1, .i32⟩
  | .hbm, ⟨67, _⟩ => ⟨S100000x64, .f32⟩
  | .hbm, ⟨68, _⟩ => ⟨S_, .f32⟩
  | .hbm, ⟨69, _⟩ => ⟨S600000, .f32⟩
  | .hbm, ⟨70, _⟩ => ⟨S_, .f32⟩
  | .hbm, ⟨71, _⟩ => ⟨S100000, .f32⟩
  | .hbm, ⟨72, _⟩ => ⟨S600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | .hbm, ⟨84, _⟩ => ⟨S100000x40, .f32⟩
  | .hbm, ⟨85, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x40_S100000x40_1_0_0_1_n_n_wf : DotDims.WF S100000x64 S64x40 S100000x40 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«170759_j8967891714111_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.Spec.lean ====
/-
  One layer of a graph convolution with mean aggregation, entry by entry on the extended reals.

  A node `p` has a row of summed neighbour messages `ms`, its own feature row `xs`, and an in-degree `d`. Entry `q`
  of the layer's output row is

      (∑ k, (ms k / max d 1) · wl (k, q)) + b q + ∑ k, xs k · wr (k, q)

  — the mean of the messages (the sum divided by the degree, a node without in-edges dividing by one) through the
  neighbour weights, plus the bias, plus the node's own features through the root weights. The sums are finite sums
  of extended reals, so neither their order nor their grouping matters; the expression is kept in exactly this
  association (the neighbour term, then the bias, then the root term), which is the one both programs compute.
  The hidden layer applies the logistic function to every entry; the output layer applies nothing.
-/
import Idealize.ShloMosaic.PureOps.Ideal
import Idealize.ShloMosaic.Lib.ValueIdx

noncomputable section

namespace Cert.Sage

open Idealize.ShloMosaic Idealize.ShloMosaic.ValueIdx

/-- The single-precision word of the number one, as the extended real it denotes. -/
abbrev one32 : EReal := Ideal.ofBits .f32 0x3F800000#32

/-- That word denotes one. -/
theorem one32_eq : one32 = 1 := by
  unfold one32
  simp [Ideal.ofBits, Ideal.ieee, -EReal.coe_mul]; norm_num

/-- The same, spelt with the word. -/
theorem ofBits_one32 : Ideal.ofBits .f32 0x3F800000#32 = 1 := one32_eq

/-- One entry of a layer's row, before any activation: `ms` the node's summed messages, `xs` its own features, `d`
    its in-degree, `wl` / `wr` the output entry's columns of the neighbour and root weights, `b` its bias. -/
def convAt (K : Nat) (ms xs : Fin K → EReal) (d : EReal) (wl wr : Fin K → EReal) (b : EReal) : EReal :=
  ((∑ k : Fin K, Ideal.div (ms k) (max d one32) * wl k) + b) + ∑ k : Fin K, xs k * wr k

/-- A whole layer before activation: `N` nodes, `K` input features, `Q` output features. -/
def conv {N K Q : Nat} (msg x : (⟨2, ![N, K]⟩ : Shape).Idx → EReal) (deg : (⟨1, ![N]⟩ : Shape).Idx → EReal)
    (wl wr : (⟨2, ![K, Q]⟩ : Shape).Idx → EReal) (b : (⟨1, ![Q]⟩ : Shape).Idx → EReal) :
    (⟨2, ![N, Q]⟩ : Shape).Idx → EReal := fun j =>
  convAt K (fun k => msg (ix2 (j 0) k)) (fun k => x (ix2 (j 0) k)) (deg (ix1 (j 0)))
    (fun k => wl (ix2 k (j 1))) (fun k => wr (ix2 k (j 1))) (b (ix1 (j 1)))

/-- The layer at node `p`, output feature `q`. -/
theorem conv_ix2 {N K Q : Nat} (msg x : (⟨2, ![N, K]⟩ : Shape).Idx → EReal) (deg : (⟨1, ![N]⟩ : Shape).Idx → EReal)
    (wl wr : (⟨2, ![K, Q]⟩ : Shape).Idx → EReal) (b : (⟨1, ![Q]⟩ : Shape).Idx → EReal) (p : Fin N) (q : Fin Q) :
    conv msg x deg wl wr b (ix2 p q)
      = convAt K (fun k => msg (ix2 p k)) (fun k => x (ix2 p k)) (deg (ix1 p))
          (fun k => wl (ix2 k q)) (fun k => wr (ix2 k q)) (b (ix1 q)) := rfl

/-- The hidden layer: the logistic function of every entry of a layer. -/
def hidden {N K Q : Nat} (msg x : (⟨2, ![N, K]⟩ : Shape).Idx → EReal) (deg : (⟨1, ![N]⟩ : Shape).Idx → EReal)
    (wl wr : (⟨2, ![K, Q]⟩ : Shape).Idx → EReal) (b : (⟨1, ![Q]⟩ : Shape).Idx → EReal) :
    (⟨2, ![N, Q]⟩ : Shape).Idx → EReal := fun j => Ideal.logistic (conv msg x deg wl wr b j)

/-- Two entries with equal ingredients are equal. -/
theorem convAt_congr {K : Nat} {ms ms' xs xs' : Fin K → EReal} {d d' : EReal} {wl wl' wr wr' : Fin K → EReal} {b b' : EReal}
    (h1 : ∀ k, ms k = ms' k) (h2 : ∀ k, xs k = xs' k) (h3 : d = d') (h4 : ∀ k, wl k = wl' k) (h5 : ∀ k, wr k = wr' k)
    (h6 : b = b') : convAt K ms xs d wl wr b = convAt K ms' xs' d' wl' wr' b' := by
  obtain rfl := funext h1
  obtain rfl := funext h2
  obtain rfl := funext h4
  obtain rfl := funext h5
  subst h3 h6
  rfl

/-- A layer whose degrees come as a column `[N, 1]` and whose biases come as a row `[1, Q]`: the same layer, the
    degree of node `p` read at `(p, 0)` and the bias of feature `q` at `(0, q)`. -/
def convCR {N K Q : Nat} (msg x : (⟨2, ![N, K]⟩ : Shape).Idx → EReal) (degc : (⟨2, ![N, 1]⟩ : Shape).Idx → EReal)
    (wl wr : (⟨2, ![K, Q]⟩ : Shape).Idx → EReal) (brow : (⟨2, ![1, Q]⟩ : Shape).Idx → EReal) :
    (⟨2, ![N, Q]⟩ : Shape).Idx → EReal :=
  conv msg x (fun i => degc (ix2 (n0 := N) (i 0) (0 : Fin 1))) wl wr (fun i => brow (ix2 (n1 := Q) (0 : Fin 1) (i 0)))

theorem convCR_ix2 {N K Q : Nat} (msg x : (⟨2, ![N, K]⟩ : Shape).Idx → EReal) (degc : (⟨2, ![N, 1]⟩ : Shape).Idx → EReal)
    (wl wr : (⟨2, ![K, Q]⟩ : Shape).Idx → EReal) (brow : (⟨2, ![1, Q]⟩ : Shape).Idx → EReal) (p : Fin N) (q : Fin Q) :
    convCR msg x degc wl wr brow (ix2 p q)
      = convAt K (fun k => msg (ix2 p k)) (fun k => x (ix2 p k)) (degc (ix2 p (0 : Fin 1)))
          (fun k => wl (ix2 k q)) (fun k => wr (ix2 k q)) (brow (ix2 (0 : Fin 1) q)) := rfl

/-- The hidden layer in that form. -/
def hiddenCR {N K Q : Nat} (msg x : (⟨2, ![N, K]⟩ : Shape).Idx → EReal) (degc : (⟨2, ![N, 1]⟩ : Shape).Idx → EReal)
    (wl wr : (⟨2, ![K, Q]⟩ : Shape).Idx → EReal) (brow : (⟨2, ![1, Q]⟩ : Shape).Idx → EReal) :
    (⟨2, ![N, Q]⟩ : Shape).Idx → EReal := fun j => Ideal.logistic (convCR msg x degc wl wr brow j)

theorem hiddenCR_ix2 {N K Q : Nat} (msg x : (⟨2, ![N, K]⟩ : Shape).Idx → EReal) (degc : (⟨2, ![N, 1]⟩ : Shape).Idx → EReal)
    (wl wr : (⟨2, ![K, Q]⟩ : Shape).Idx → EReal) (brow : (⟨2, ![1, Q]⟩ : Shape).Idx → EReal) (p : Fin N) (q : Fin Q) :
    hiddenCR msg x degc wl wr brow (ix2 p q)
      = Ideal.logistic (convAt K (fun k => msg (ix2 p k)) (fun k => x (ix2 p k)) (degc (ix2 p (0 : Fin 1)))
          (fun k => wl (ix2 k q)) (fun k => wr (ix2 k q)) (brow (ix2 (0 : Fin 1) q))) := rfl

end Cert.Sage

end
-- ==== Proof.LibGraphConv.lean ====
/-
  One entry of a mean-aggregating graph-convolution layer (`Cert.Sage.convAt`), read off the two spellings a
  program gives it, at the exact values.

  The vector unit's spelling works on a block of `M` nodes: the degree column `[M, 1]` is clamped below by one and
  repeated across the features, the message block is divided by it entry by entry, a matrix product into a zero
  accumulator takes it through the neighbour weights, a `[1, N]` bias row is repeated down the rows and added, and a
  second matrix product takes the nodes' own features through the root weights. The host's spelling does the same on
  whole arrays with the degree a vector `[M]` made a column by `broadcast_in_dim`, the bias a vector `[N]` made a
  row, and `dot_general` for the products. Entry `(r, q)` of either depends on row `r` of the messages and of the
  features, on the degree of `r`, on column `q` of both weight matrices and on bias `q`: the matrix products are
  plain sums over the contraction index, and the layout operations read one operand entry each.
-/
import proofs.«170759_j8967891714111_1_alg».proof.Proof.LibRows
import proofs.«170759_j8967891714111_1_alg».proof.Proof.LibCols
import proofs.«170759_j8967891714111_1_alg».proof.Proof.Spec

noncomputable section

namespace Cert.LibGraphConv

open Idealize.ShloMosaic Idealize.ShloMosaic.ValueIdx Cert.Sage

/-- The vector unit's spelling at entry `(r, q)` of a block. `xc` is the feature block as the product reads it (the
    loaded block, possibly through a shape cast onto its own shape: `hxc`). -/
theorem vecConv_apply {M K N : Nat} (D : DotDims ⟨2, ![M, K]⟩ ⟨2, ![K, N]⟩ ⟨2, ![M, N]⟩) (hD : D = DotDims.plain M K N)
    (h1 : (⟨2, ![M, 1]⟩ : Shape).ShapeCasts ⟨2, ![M, 1]⟩) (h2 : (⟨2, ![M, K]⟩ : Shape).ShapeCasts ⟨2, ![M, K]⟩)
    (h3 : (⟨2, ![M, 1]⟩ : Shape).Broadcasts ⟨2, ![M, K]⟩) (h4 : (⟨2, ![1, N]⟩ : Shape).ShapeCasts ⟨2, ![1, N]⟩)
    (h5 : (⟨2, ![1, N]⟩ : Shape).Broadcasts ⟨2, ![M, N]⟩)
    (d : FVec Ideal ⟨2, ![M, 1]⟩ .f32) (ms : FVec Ideal ⟨2, ![M, K]⟩ .f32) (wl : FVec Ideal ⟨2, ![K, N]⟩ .f32)
    (b : FVec Ideal ⟨2, ![1, N]⟩ .f32) (xx xc : FVec Ideal ⟨2, ![M, K]⟩ .f32) (hxc : xc = xx) (wr : FVec Ideal ⟨2, ![K, N]⟩ .f32)
    (r : Fin M) (q : Fin N) :
    addf (addf (matmul D none (divf (shapeCast ⟨2, ![M, K]⟩ ms h2)
          (broadcastTo ⟨2, ![M, K]⟩ (maximumf (shapeCast ⟨2, ![M, 1]⟩ d h1) (broadcast ⟨2, ![M, 1]⟩ (Scalar.ofBits .f32 0x3F800000#32))) h3))
          wl (constant ⟨2, ![M, N]⟩ .f32 0x00000000#32))
        (broadcastTo ⟨2, ![M, N]⟩ (shapeCast ⟨2, ![1, N]⟩ b h4) h5))
      (matmul D none xc wr (constant ⟨2, ![M, N]⟩ .f32 0x00000000#32)) (ix2 r q)
    = convAt K (fun k => ms (ix2 r k)) (fun k => xx (ix2 r k)) (d (ix2 r (0 : Fin 1)))
        (fun k => wl (ix2 k q)) (fun k => wr (ix2 k q)) (b (ix2 (0 : Fin 1) q)) := by
  subst hxc
  rw [shapeCast_self, shapeCast_self, shapeCast_self]
  show (matmul D none _ wl _ (ix2 r q) + broadcastTo ⟨2, ![M, N]⟩ b h5 (ix2 r q)) + matmul D none xc wr _ (ix2 r q) = _
  rw [Cert.LibRows.matmul_plain_apply D hD, Cert.LibRows.matmul_plain_apply D hD, broadcastTo_1b_ab_apply]
  unfold convAt
  refine congrArg₂ (· + ·) (congrArg₂ (· + ·) (Finset.sum_congr rfl fun k _ => ?_) rfl) rfl
  show Ideal.div (ms (ix2 r k)) (broadcastTo ⟨2, ![M, K]⟩ _ h3 (ix2 r k)) * wl (ix2 k q) = _
  rw [Cert.LibCols.broadcastTo_a1_ab_apply]
  rfl

/-- The host's spelling at entry `(p, q)` of the whole arrays. -/
theorem hostConv_apply {M K N : Nat} (D : DotDims ⟨2, ![M, K]⟩ ⟨2, ![K, N]⟩ ⟨2, ![M, N]⟩) (hD : D = DotDims.plain M K N)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (h3 : (⟨1, ![N]⟩ : Shape).BroadcastsInDim ⟨2, ![1, N]⟩ ![1])
    (h4 : (⟨2, ![1, N]⟩ : Shape).BroadcastsInDim ⟨2, ![M, N]⟩ ![0, 1])
    (msg x : FVec Ideal ⟨2, ![M, K]⟩ .f32) (deg : FVec Ideal ⟨1, ![M]⟩ .f32) (wl wr : FVec Ideal ⟨2, ![K, N]⟩ .f32)
    (b : FVec Ideal ⟨1, ![N]⟩ .f32) (p : Fin M) (q : Fin N) :
    addf (addf (Host.dotGeneral D none (Host.divf msg
          (broadcastInDim ⟨2, ![M, K]⟩ ![0, 1] h2 (broadcastInDim ⟨2, ![M, 1]⟩ ![0] h1
            (maximumf deg (broadcastInDim ⟨1, ![M]⟩ ![] h0 (constant (F := Ideal) ⟨0, ![]⟩ .f32 0x3F800000#32)))))) wl)
        (broadcastInDim ⟨2, ![M, N]⟩ ![0, 1] h4 (broadcastInDim ⟨2, ![1, N]⟩ ![1] h3 b)))
      (Host.dotGeneral D none x wr) (ix2 p q)
    = conv msg x deg wl wr b (ix2 p q) := by
  rw [conv_ix2, addf_apply, addf_apply, Cert.LibRows.dotGeneral_plain_apply D hD, Cert.LibRows.dotGeneral_plain_apply D hD,
    Cert.LibRows.rowBiasInDim_apply]
  unfold convAt
  refine congrArg₂ (· + ·) (congrArg₂ (· + ·) (Finset.sum_congr rfl fun k _ => ?_) rfl) rfl
  refine congrArg₂ (· * ·) ?_ rfl
  refine congrArg (Ideal.div (msg (ix2 p k))) ?_
  rw [Cert.LibCols.inDim_a1_ab_apply, Cert.LibCols.inDim_a_a1_apply]
  refine congrArg (max (deg (ix1 p))) ?_
  rw [Cert.LibRows.scalarInDim_apply]
  rfl

end Cert.LibGraphConv

end
-- ==== Proof.Target.lean ====
/-
  The reference, read as two graph-convolution layers.

  The reference gathers each edge's source row, scatter-adds it into the edge's target row (the summed messages),
  counts the edges into each node (the in-degree), divides, and applies `Cert.Sage.conv`; it takes the logistic function
  of the result (spelt `1 / (1 + exp (-z))`, which is the logistic function on the extended reals by definition), and
  repeats the aggregation and the layer on the hidden features, recomputing the same in-degrees. Which rows a gather
  or a scatter touches depends on the edge list's values, so those two operations are never opened here: the summed
  messages are carried as the operations' own terms, of the features they aggregate.
-/
import proofs.«170759_j8967891714111_1_alg».proof.Proof.Gen.ReferenceIdeal.Read
import proofs.«170759_j8967891714111_1_alg».proof.Proof.LibGraphConv

noncomputable section

namespace Cert.ReferenceIdeal.Target

open Idealize.ShloMosaic Idealize.ShloMosaic.ValueIdx Cert.ReferenceIdeal Cert.ReferenceIdeal.Gen Cert.ReferenceIdeal.Read Cert.Sage

/-- The first layer's summed messages: each edge's source row of `x` added into the edge's target row. -/
abbrev msg1 (x : FVec Ideal S100000x128 .f32) (ei : IVec S2x600000 32) : FVec Ideal S100000x128 .f32 :=
  val_main_v13 (F := Ideal) x ei

/-- The in-degrees: one added into each edge's target node. -/
abbrev deg (ei : IVec S2x600000 32) : FVec Ideal S100000 .f32 := val_main_v17 (F := Ideal) ei

/-- The hidden features. -/
def hid (x : FVec Ideal S100000x128 .f32) (ei : IVec S2x600000 32) (w1l : FVec Ideal S128x64 .f32) (b1 : FVec Ideal S64 .f32)
    (w1r : FVec Ideal S128x64 .f32) : FVec Ideal S100000x64 .f32 :=
  hidden (msg1 x ei) x (deg ei) w1l w1r b1

/-- The second layer's summed messages, of any hidden features `h`: the same gather and scatter-add along the edges. -/
def msg2 (h : FVec Ideal S100000x64 .f32) (ei : IVec S2x600000 32) : FVec Ideal S100000x64 .f32 :=
  Host.scatterAdd scatter_S100000x64_S600000x1_S600000x64_1_0_0_1 (val_main_v46 (F := Ideal)) (val_main_v47 (F := Ideal) ei)
    (Host.gather gather_S100000x64_S600000x1_S600000x64_1_0_n_n_0_1_164 h (val_main_v44 (F := Ideal) ei))

/-- The network's output. -/
def out (x : FVec Ideal S100000x128 .f32) (ei : IVec S2x600000 32) (w1l : FVec Ideal S128x64 .f32) (b1 : FVec Ideal S64 .f32)
    (w1r : FVec Ideal S128x64 .f32) (w2l : FVec Ideal S64x40 .f32) (b2 : FVec Ideal S40 .f32) (w2r : FVec Ideal S64x40 .f32) :
    FVec Ideal S100000x40 .f32 :=
  conv (msg2 (hid x ei w1l b1 w1r) ei) (hid x ei w1l b1 w1r) (deg ei) w2l w2r b2

/-- The reference's hidden stage is the hidden layer. -/
theorem hid_eq (x : FVec Ideal S100000x128 .f32) (ei : IVec S2x600000 32) (w1l : FVec Ideal S128x64 .f32) (b1 : FVec Ideal S64 .f32)
    (w1r : FVec Ideal S128x64 .f32) : val_main_v34 (F := Ideal) x ei w1l b1 w1r = hid x ei w1l b1 w1r := by
  funext j
  obtain ⟨p, q, rfl⟩ : ∃ (p : Fin 100000) (q : Fin 64), j = ix2 p q := ⟨j 0, j 1, eq_ix2 j⟩
  have hz : val_main_v28 (F := Ideal) x ei w1l b1 w1r (ix2 p q) = conv (msg1 x ei) x (deg ei) w1l w1r b1 (ix2 p q) :=
    Cert.LibGraphConv.hostConv_apply dot_S100000x128_S128x64_S100000x64_1_0_0_1_n_n rfl bcast_S_S100000 bcast_S100000_S100000x1_0
      bcast_S100000x1_S100000x128_0_1 bcast_S64_S1x64_1 bcast_S1x64_S100000x64_0_1 (msg1 x ei) x (deg ei) w1l w1r b1 p q
  rw [val_main_v34_apply, val_main_v33_apply, val_main_cst_5_apply, val_main_v32_apply, val_main_v31_apply, val_main_cst_4_apply,
    val_main_v30_apply, val_main_v29_apply, hz]
  simp only [Ideal.hostDivf_def, Ideal.ofBits_def, Ideal.addf_def, Ideal.hostUnary_exp_def, Ideal.hostNegf_def, Ideal.negf_def,
    ofBits_one32]
  rfl

/-- The second aggregation is `msg2` of the hidden stage. -/
theorem msg2_eq (x : FVec Ideal S100000x128 .f32) (ei : IVec S2x600000 32) (w1l : FVec Ideal S128x64 .f32) (b1 : FVec Ideal S64 .f32)
    (w1r : FVec Ideal S128x64 .f32) :
    val_main_v48 (F := Ideal) x ei w1l b1 w1r = msg2 (val_main_v34 (F := Ideal) x ei w1l b1 w1r) ei := rfl

/-- The in-degrees are computed twice, by the same operations of the same edge list. -/
theorem deg2_eq (ei : IVec S2x600000 32) : val_main_v52 (F := Ideal) ei = deg ei := rfl

/-- The reference's result is the network's output. -/
theorem result_eq (x : FVec Ideal S100000x128 .f32) (ei : IVec S2x600000 32) (w1l : FVec Ideal S128x64 .f32) (b1 : FVec Ideal S64 .f32)
    (w1r : FVec Ideal S128x64 .f32) (w2l : FVec Ideal S64x40 .f32) (b2 : FVec Ideal S40 .f32) (w2r : FVec Ideal S64x40 .f32) :
    val_main_v63 (F := Ideal) x ei w1l b1 w1r w2l b2 w2r = out x ei w1l b1 w1r w2l b2 w2r := by
  funext j
  obtain ⟨p, q, rfl⟩ : ∃ (p : Fin 100000) (q : Fin 40), j = ix2 p q := ⟨j 0, j 1, eq_ix2 j⟩
  unfold out
  rw [← hid_eq]
  exact Cert.LibGraphConv.hostConv_apply dot_S100000x64_S64x40_S100000x40_1_0_0_1_n_n rfl bcast_S_S100000 bcast_S100000_S100000x1_0
    bcast_S100000x1_S100000x64_0_1 bcast_S40_S1x40_1 bcast_S1x40_S100000x40_0_1
    (msg2 (val_main_v34 (F := Ideal) x ei w1l b1 w1r) ei) (val_main_v34 (F := Ideal) x ei w1l b1 w1r) (deg ei) w2l w2r b2 p q

end Cert.ReferenceIdeal.Target

end
-- ==== Proof.Bodies.lean ====
/-
  What the two kernel bodies store, at an entry of the block, on the extended reals.

  Both bodies compute one graph-convolution layer on a block of 5000 nodes. The first (128 input features, 64 output
  features) ends with the logistic function; the second (64 input features, 40 output features) does not, and passes
  its own-features block through a shape cast onto its own shape before the second product. Entry `(r, q)` of either
  stored block is `Cert.Sage.convAt` of row `r` of the message and feature blocks, the degree of `r`, column `q` of
  the two weight matrices and bias `q`.
-/
import proofs.«170759_j8967891714111_1_alg».proof.Proof.Gen.KernelIdeal.Skeleton
import proofs.«170759_j8967891714111_1_alg».proof.Proof.LibGraphConv

noncomputable section

namespace Cert.KernelIdeal.Bodies

open Idealize.ShloMosaic Idealize.ShloMosaic.ValueIdx Cert.KernelIdeal Cert.KernelIdeal.Gen Cert.Sage

/-- The first body's stored block at `(r, q)`: the logistic function of the layer's entry. -/
theorem pay0_at (d : FVec Ideal S5000x1 .f32) (ms : FVec Ideal S5000x128 .f32) (wl : FVec Ideal S128x64 .f32)
    (b : FVec Ideal S1x64 .f32) (xx : FVec Ideal S5000x128 .f32) (wr : FVec Ideal S128x64 .f32) (r : Fin 5000) (q : Fin 64) :
    k0_pay1 (F := Ideal) d ms wl b xx wr (ix2 r q)
      = Ideal.logistic (convAt 128 (fun k => ms (ix2 r k)) (fun k => xx (ix2 r k)) (d (ix2 r (0 : Fin 1)))
          (fun k => wl (ix2 k q)) (fun k => wr (ix2 k q)) (b (ix2 (0 : Fin 1) q))) :=
  congrArg Ideal.logistic
    (Cert.LibGraphConv.vecConv_apply dot_S5000x128_S128x64_S5000x64_1_0_0_1_n_n rfl shapeCasts_S5000x1_S5000x1
      shapeCasts_S5000x128_S5000x128 broadcasts_S5000x1_S5000x128 shapeCasts_S1x64_S1x64 broadcasts_S1x64_S5000x64
      d ms wl b xx xx rfl wr r q)

/-- The second body's stored block at `(r, q)`: the layer's entry. -/
theorem pay1_at (d : FVec Ideal S5000x1 .f32) (ms : FVec Ideal S5000x64 .f32) (wl : FVec Ideal S64x40 .f32)
    (b : FVec Ideal S1x40 .f32) (xx : FVec Ideal S5000x64 .f32) (wr : FVec Ideal S64x40 .f32) (r : Fin 5000) (q : Fin 40) :
    k1_pay1 (F := Ideal) d ms wl b xx wr (ix2 r q)
      = convAt 64 (fun k => ms (ix2 r k)) (fun k => xx (ix2 r k)) (d (ix2 r (0 : Fin 1)))
          (fun k => wl (ix2 k q)) (fun k => wr (ix2 k q)) (b (ix2 (0 : Fin 1) q)) :=
  Cert.LibGraphConv.vecConv_apply dot_S5000x64_S64x40_S5000x40_1_0_0_1_n_n rfl shapeCasts_S5000x1_S5000x1
    shapeCasts_S5000x64_S5000x64 broadcasts_S5000x1_S5000x64 shapeCasts_S1x40_S1x40 broadcasts_S1x40_S5000x40
    d ms wl b xx (shapeCast S5000x64 xx shapeCasts_S5000x64_S5000x64) (shapeCast_self xx _) wr r q

end Cert.KernelIdeal.Bodies

end
-- ==== Proof.Region0.lean ====
/-
  What pallas region 0 leaves in its output array, as one function of the arrays it finds.

  The grid has 20 points; point `t` works on nodes `5000·t … 5000·t + 4999`: the message, degree and feature windows
  fetch that block of rows, the two weight matrices and the bias row are fetched whole, and the output window writes
  the block of rows back. Row `r` of the block written at point `t` is the layer's row of node `5000·t + r`, computed
  from that node's rows of the arrays (the body's stored block read at an entry, each loaded block read where it
  lies in its array). The twenty blocks tile the output array, so afterwards the whole array is the layer under the logistic function.
-/
import proofs.«170759_j8967891714111_1_alg».proof.Proof.Gen.KernelIdeal.Frame
import proofs.«170759_j8967891714111_1_alg».proof.Proof.Bodies
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has twenty points. -/
theorem point_lt (t : Fin cfg0.N) : t.val < 20 := lt_of_lt_of_eq t.isLt N_0

/-- The node that row `r` of point `t`'s blocks belongs to. -/
def node (t : Fin cfg0.N) (r : Fin 5000) : Fin 100000 :=
  ⟨t.val * 5000 + r.val, by have := point_lt t; have := r.isLt; omega⟩

/-- The printed index maps over the grid: the row windows sit at block row `t`, column block 0; the resident
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-! ## Each loaded block, read where it lies in its array -/

theorem blk_msg (c : Dev nD) (t : Fin cfg0.N) (r : Fin 5000) (k : Fin 128) :
    iblk0 V c 0 t (ix2 r k) = V c main_v17 (ix2 (node t r) k) := by
  show V c main_v17 (((cfg0.win 0).blk t).view.emb (ix2 r k)) = _
  refine congrArg (V c main_v17) (funext fun a => Fin.ext ?_)
  obtain ⟨e0, e1, -⟩ := idx_facts t
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

theorem blk_deg (c : Dev nD) (t : Fin cfg0.N) (r : Fin 5000) :
    iblk0 V c 1 t (ix2 r (0 : Fin 1)) = V c main_v18 (ix2 (node t r) (0 : Fin 1)) := by
  show V c main_v18 (((cfg0.win 1).blk t).view.emb (ix2 r (0 : Fin 1))) = _
  refine congrArg (V c main_v18) (funext fun a => Fin.ext ?_)
  obtain ⟨-, -, e0, e1, -⟩ := idx_facts t
  match a with
  | ⟨0, _⟩ => show win0_1.index t (0 : Fin 2) * 5000 + 1 * r.val = t.val * 5000 + r.val; rw [e0]; omega
  | ⟨1, _⟩ => show win0_1.index t (1 : Fin 2) * 1 + 1 * 0 = 0; rw [e1]

theorem blk_x (c : Dev nD) (t : Fin cfg0.N) (r : Fin 5000) (k : Fin 128) :
    iblk0 V c 2 t (ix2 r k) = V c main_arg0 (ix2 (node t r) k) := by
  show V c main_arg0 (((cfg0.win 2).blk t).view.emb (ix2 r k)) = _
  refine congrArg (V c main_arg0) (funext fun a => Fin.ext ?_)
  obtain ⟨-, -, -, -, e0, e1, -⟩ := idx_facts t
  match a with
  | ⟨0, _⟩ => show win0_2.index t (0 : Fin 2) * 5000 + 1 * r.val = t.val * 5000 + r.val; rw [e0]; omega
  | ⟨1, _⟩ => show win0_2.index t (1 : Fin 2) * 128 + 1 * k.val = k.val; rw [e1]; omega

theorem blk_wl (c : Dev nD) (t : Fin cfg0.N) (k : Fin 128) (q : Fin 64) :
    iblk0 V c 3 t (ix2 k q) = V c main_arg2 (ix2 k q) := by
  show V c main_arg2 (((cfg0.win 3).blk t).view.emb (ix2 k q)) = _
  refine congrArg (V c main_arg2) (funext fun a => Fin.ext ?_)
  obtain ⟨-, -, -, -, -, -, e0, e1, -⟩ := idx_facts t
  match a with
  | ⟨0, _⟩ => show win0_3.index t (0 : Fin 2) * 128 + 1 * k.val = k.val; rw [e0]; omega
  | ⟨1, _⟩ => show win0_3.index t (1 : Fin 2) * 64 + 1 * q.val = q.val; rw [e1]; omega

theorem blk_b (c : Dev nD) (t : Fin cfg0.N) (q : Fin 64) :
    iblk0 V c 4 t (ix2 (0 : Fin 1) q) = V c main_v19 (ix2 (0 : Fin 1) q) := by
  show V c main_v19 (((cfg0.win 4).blk t).view.emb (ix2 (0 : Fin 1) q)) = _
  refine congrArg (V c main_v19) (funext fun a => Fin.ext ?_)
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 64 + 1 * q.val = q.val; rw [e1]; omega

theorem blk_wr (c : Dev nD) (t : Fin cfg0.N) (k : Fin 128) (q : Fin 64) :
    iblk0 V c 5 t (ix2 k q) = V c main_arg4 (ix2 k q) := by
  show V c main_arg4 (((cfg0.win 5).blk t).view.emb (ix2 k q)) = _
  refine congrArg (V c main_arg4) (funext fun a => Fin.ext ?_)
  obtain ⟨-, -, -, -, -, -, -, -, -, -, e0, e1, -⟩ := idx_facts t
  match a with
  | ⟨0, _⟩ => show win0_5.index t (0 : Fin 2) * 128 + 1 * k.val = k.val; rw [e0]; omega
  | ⟨1, _⟩ => show win0_5.index t (1 : Fin 2) * 64 + 1 * q.val = q.val; rw [e1]; omega

/-- Where entry `(r, q)` of the block written at point `t` lies in the output array. -/
theorem emb_out (t : Fin cfg0.N) (r : Fin 5000) (q : Fin 64) :
    ((cfg0.win 6).blk t).view.emb (ix2 r q) = ix2 (node t r) q := by
  refine funext fun a => Fin.ext ?_
  obtain ⟨-, -, -, -, -, -, -, -, -, -, -, -, e0, e1⟩ := idx_facts t
  match a with
  | ⟨0, _⟩ => show win0_6.index t (0 : Fin 2) * 5000 + 1 * r.val = t.val * 5000 + r.val; rw [e0]; omega
  | ⟨1, _⟩ => show win0_6.index t (1 : Fin 2) * 64 + 1 * q.val = q.val; rw [e1]; omega

/-! ## The block a point writes back, and the whole array -/

/-- The layer of the arrays the region finds. -/
abbrev layer (c : Dev nD) : S100000x64.Idx → EReal :=
  hiddenCR (N := 100000) (K := 128) (Q := 64) (V c main_v17) (V c main_arg0) (V c main_v18) (V c main_arg2) (V c main_arg4) (V c main_v19)

/-- What point `t` writes back is block `t` of the layer. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x128) hz, View.ld_unit_zero (S := S128x64) hz,
    View.ld_unit_zero (S := S1x64) hz]
  funext y
  obtain ⟨r, q, rfl⟩ : ∃ (r : Fin 5000) (q : Fin 64), y = ix2 r q := ⟨y 0, y 1, eq_ix2 y⟩
  show k0_pay1 (iblk0 V c 1 t) (iblk0 V c 0 t) (iblk0 V c 3 t) (iblk0 V c 4 t) (iblk0 V c 2 t) (iblk0 V c 5 t) (ix2 r q)
    = layer V c (((cfg0.win 6).blk t).view.emb (ix2 r q))
  rw [emb_out t r q]
  refine (Cert.KernelIdeal.Bodies.pay0_at _ _ _ _ _ _ r q).trans ?_
  show _ = Ideal.logistic (convAt 128 (fun k => V c main_v17 (ix2 (node t r) k)) (fun k => V c main_arg0 (ix2 (node t r) k))
    (V c main_v18 (ix2 (node t r) (0 : Fin 1))) (fun k => V c main_arg2 (ix2 k q)) (fun k => V c main_arg4 (ix2 k q)) (V c main_v19 (ix2 (0 : Fin 1) q)))
  exact congrArg Ideal.logistic (convAt_congr (fun k => blk_msg V c t r k) (fun k => blk_x V c t r k) (blk_deg V c t r)
    (fun k => blk_wl V c t k q) (fun k => blk_wr V c t k q) (blk_b V c t q))

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v20).slice (win0_6.rect t)).set ↔ _
  rw [View.set_slice_whole, Rect.mem_set_unit]
  exact Iff.rfl

/-- The blocks tile the array: node `p`'s row is in the block of point `p / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- After the region its output array is the layer of the arrays it found. -/
theorem final (c : Dev nD) : (dat0 V c).arrAt 6 cfg0.N = layer V c :=
  (dat0 V c).arrAt_eq_of_cover 6 (layer V c) (fun t _ => flushed_eq V c t) cover

end Cert.KernelIdeal.Region0

end
-- ==== Proof.Region1.lean ====
/-
  What pallas region 1 leaves in its output array, as one function of the arrays it finds.

  The grid has 20 points; point `t` works on nodes `5000·t … 5000·t + 4999`: the message, degree and feature windows
  fetch that block of rows, the two weight matrices and the bias row are fetched whole, and the output window writes
  the block of rows back. Row `r` of the block written at point `t` is the layer's row of node `5000·t + r`, computed
  from that node's rows of the arrays (the body's stored block read at an entry, each loaded block read where it
  lies in its array). The twenty blocks tile the output array, so afterwards the whole array is the layer.
-/
import proofs.«170759_j8967891714111_1_alg».proof.Proof.Gen.KernelIdeal.Frame
import proofs.«170759_j8967891714111_1_alg».proof.Proof.Bodies
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has twenty points. -/
theorem point_lt (t : Fin cfg1.N) : t.val < 20 := lt_of_lt_of_eq t.isLt N_1

/-- The node that row `r` of point `t`'s blocks belongs to. -/
def node (t : Fin cfg1.N) (r : Fin 5000) : Fin 100000 :=
  ⟨t.val * 5000 + r.val, by have := point_lt t; have := r.isLt; omega⟩

/-- The printed index maps over the grid: the row windows sit at block row `t`, column block 0; the resident
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block row is some point's. -/
theorem idx_onto : ∀ q0 : Fin 20, ∃ t : Fin cfg1.N, win1_6.index t = ![q0.val, 0] :=
  (by decide +kernel : ∀ q0 : Fin 20, ∃ t : Fin grid1.N, win1_6.index t = ![q0.val, 0])

/-! ## Each loaded block, read where it lies in its array -/

theorem blk_msg (c : Dev nD) (t : Fin cfg1.N) (r : Fin 5000) (k : Fin 64) :
    iblk1 V c 0 t (ix2 r k) = V c main_v30 (ix2 (node t r) k) := by
  show V c main_v30 (((cfg1.win 0).blk t).view.emb (ix2 r k)) = _
  refine congrArg (V c main_v30) (funext fun a => Fin.ext ?_)
  obtain ⟨e0, e1, -⟩ := idx_facts t
  match a with
  | ⟨0, _⟩ => show win1_0.index t (0 : Fin 2) * 5000 + 1 * r.val = t.val * 5000 + r.val; rw [e0]; omega
  | ⟨1, _⟩ => show win1_0.index t (1 : Fin 2) * 64 + 1 * k.val = k.val; rw [e1]; omega

theorem blk_deg (c : Dev nD) (t : Fin cfg1.N) (r : Fin 5000) :
    iblk1 V c 1 t (ix2 r (0 : Fin 1)) = V c main_v31 (ix2 (node t r) (0 : Fin 1)) := by
  show V c main_v31 (((cfg1.win 1).blk t).view.emb (ix2 r (0 : Fin 1))) = _
  refine congrArg (V c main_v31) (funext fun a => Fin.ext ?_)
  obtain ⟨-, -, e0, e1, -⟩ := idx_facts t
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

theorem blk_x (c : Dev nD) (t : Fin cfg1.N) (r : Fin 5000) (k : Fin 64) :
    iblk1 V c 2 t (ix2 r k) = V c main_v20 (ix2 (node t r) k) := by
  show V c main_v20 (((cfg1.win 2).blk t).view.emb (ix2 r k)) = _
  refine congrArg (V c main_v20) (funext fun a => Fin.ext ?_)
  obtain ⟨-, -, -, -, e0, e1, -⟩ := idx_facts t
  match a with
  | ⟨0, _⟩ => show win1_2.index t (0 : Fin 2) * 5000 + 1 * r.val = t.val * 5000 + r.val; rw [e0]; omega
  | ⟨1, _⟩ => show win1_2.index t (1 : Fin 2) * 64 + 1 * k.val = k.val; rw [e1]; omega

theorem blk_wl (c : Dev nD) (t : Fin cfg1.N) (k : Fin 64) (q : Fin 40) :
    iblk1 V c 3 t (ix2 k q) = V c main_arg5 (ix2 k q) := by
  show V c main_arg5 (((cfg1.win 3).blk t).view.emb (ix2 k q)) = _
  refine congrArg (V c main_arg5) (funext fun a => Fin.ext ?_)
  obtain ⟨-, -, -, -, -, -, e0, e1, -⟩ := idx_facts t
  match a with
  | ⟨0, _⟩ => show win1_3.index t (0 : Fin 2) * 64 + 1 * k.val = k.val; rw [e0]; omega
  | ⟨1, _⟩ => show win1_3.index t (1 : Fin 2) * 40 + 1 * q.val = q.val; rw [e1]; omega

theorem blk_b (c : Dev nD) (t : Fin cfg1.N) (q : Fin 40) :
    iblk1 V c 4 t (ix2 (0 : Fin 1) q) = V c main_v32 (ix2 (0 : Fin 1) q) := by
  show V c main_v32 (((cfg1.win 4).blk t).view.emb (ix2 (0 : Fin 1) q)) = _
  refine congrArg (V c main_v32) (funext fun a => Fin.ext ?_)
  obtain ⟨-, -, -, -, -, -, -, -, e0, e1, -⟩ := idx_facts t
  match a with
  | ⟨0, _⟩ => show win1_4.index t (0 : Fin 2) * 1 + 1 * 0 = 0; rw [e0]
  | ⟨1, _⟩ => show win1_4.index t (1 : Fin 2) * 40 + 1 * q.val = q.val; rw [e1]; omega

theorem blk_wr (c : Dev nD) (t : Fin cfg1.N) (k : Fin 64) (q : Fin 40) :
    iblk1 V c 5 t (ix2 k q) = V c main_arg7 (ix2 k q) := by
  show V c main_arg7 (((cfg1.win 5).blk t).view.emb (ix2 k q)) = _
  refine congrArg (V c main_arg7) (funext fun a => Fin.ext ?_)
  obtain ⟨-, -, -, -, -, -, -, -, -, -, e0, e1, -⟩ := idx_facts t
  match a with
  | ⟨0, _⟩ => show win1_5.index t (0 : Fin 2) * 64 + 1 * k.val = k.val; rw [e0]; omega
  | ⟨1, _⟩ => show win1_5.index t (1 : Fin 2) * 40 + 1 * q.val = q.val; rw [e1]; omega

/-- Where entry `(r, q)` of the block written at point `t` lies in the output array. -/
theorem emb_out (t : Fin cfg1.N) (r : Fin 5000) (q : Fin 40) :
    ((cfg1.win 6).blk t).view.emb (ix2 r q) = ix2 (node t r) q := by
  refine funext fun a => Fin.ext ?_
  obtain ⟨-, -, -, -, -, -, -, -, -, -, -, -, e0, e1⟩ := idx_facts t
  match a with
  | ⟨0, _⟩ => show win1_6.index t (0 : Fin 2) * 5000 + 1 * r.val = t.val * 5000 + r.val; rw [e0]; omega
  | ⟨1, _⟩ => show win1_6.index t (1 : Fin 2) * 40 + 1 * q.val = q.val; rw [e1]; omega

/-! ## The block a point writes back, and the whole array -/

/-- The layer of the arrays the region finds. -/
abbrev layer (c : Dev nD) : S100000x40.Idx → EReal :=
  convCR (N := 100000) (K := 64) (Q := 40) (V c main_v30) (V c main_v20) (V c main_v31) (V c main_arg5) (V c main_arg7) (V c main_v32)

/-- What point `t` writes back is block `t` of the layer. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x64) hz, View.ld_unit_zero (S := S64x40) hz,
    View.ld_unit_zero (S := S1x40) hz]
  funext y
  obtain ⟨r, q, rfl⟩ : ∃ (r : Fin 5000) (q : Fin 40), y = ix2 r q := ⟨y 0, y 1, eq_ix2 y⟩
  show k1_pay1 (iblk1 V c 1 t) (iblk1 V c 0 t) (iblk1 V c 3 t) (iblk1 V c 4 t) (iblk1 V c 2 t) (iblk1 V c 5 t) (ix2 r q)
    = layer V c (((cfg1.win 6).blk t).view.emb (ix2 r q))
  rw [emb_out t r q]
  refine (Cert.KernelIdeal.Bodies.pay1_at _ _ _ _ _ _ r q).trans ?_
  show _ = convAt 64 (fun k => V c main_v30 (ix2 (node t r) k)) (fun k => V c main_v20 (ix2 (node t r) k))
    (V c main_v31 (ix2 (node t r) (0 : Fin 1))) (fun k => V c main_arg5 (ix2 k q)) (fun k => V c main_arg7 (ix2 k q)) (V c main_v32 (ix2 (0 : Fin 1) q))
  exact convAt_congr (fun k => blk_msg V c t r k) (fun k => blk_x V c t r k) (blk_deg V c t r)
    (fun k => blk_wl V c t k q) (fun k => blk_wr V c t k q) (blk_b V c t q)

/-- An index of the output array is in point `t`'s block iff each coordinate is in the block's range on its axis. -/
theorem mem_blk (t : Fin cfg1.N) (i : S100000x40.Idx) :
    i ∈ ((cfg1.win 6).blk t).view.set ↔ ∀ a : Fin 2, win1_6.index t a * S5000x40.size a ≤ (i a).val
      ∧ (i a).val < win1_6.index t a * S5000x40.size a + S5000x40.size a := by
  show i ∈ ((View.whole main_v33).slice (win1_6.rect t)).set ↔ _
  rw [View.set_slice_whole, Rect.mem_set_unit]
  exact Iff.rfl

/-- The blocks tile the array: node `p`'s row is in the block of point `p / 5000`. -/
theorem cover (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 40 ≤ (i 1).val ∧ (i 1).val < win1_6.index t (1 : Fin 2) * 40 + 40
    omega

/-- After the region its output array is the layer of the arrays it found. -/
theorem final (c : Dev nD) : (dat1 V c).arrAt 6 cfg1.N = layer V c :=
  (dat1 V c).arrAt_eq_of_cover 6 (layer V c) (fun t _ => flushed_eq V c t) cover

end Cert.KernelIdeal.Region1

end
-- ==== Proof.Through.lean ====
/-
  The kernel's program, read through its four segments: host operations, the first pallas region, host operations,
  the second pallas region.

  Before the first region the host gathers each edge's source row of `x` and scatter-adds it into the edge's target
  row (the summed messages), counts the edges into each node (the in-degrees, made a column), and makes the first
  bias a row. The first region then leaves the hidden features in its output array. Between the regions the host
  gathers and scatter-adds the hidden features along the same edges, makes the same in-degrees a column again and
  the second bias a row; the second region leaves the network's output. The gathers and scatter-adds are the very
  operations the reference applies to the same edge list, so they are carried as those terms and never opened; a
  column `[N, 1]` cast from a vector reads the vector, and a row `[1, Q]` cast from a vector reads the vector.
-/
import proofs.«170759_j8967891714111_1_alg».proof.Proof.Gen.KernelIdeal.Frame
import proofs.«170759_j8967891714111_1_alg».proof.Proof.Region0
import proofs.«170759_j8967891714111_1_alg».proof.Proof.Region1
import proofs.«170759_j8967891714111_1_alg».proof.Proof.Target
import Idealize.ShloMosaic.Lib.StableHlo.Run
import Idealize.ShloMosaic.Lib.ValueLayout

set_option maxRecDepth 16384

noncomputable section

namespace Cert.KernelIdeal.Through

open Idealize.ShloMosaic Idealize.ShloMosaic.TcCoe Idealize.SL.Sem Idealize.ShloMosaic.ValueIdx Idealize.ShloMosaic.StableHlo
open Cert.KernelIdeal Cert.KernelIdeal.Gen Cert.Sage

/-- A layer that reads its degrees from a column cast from a vector and its biases from a row cast from a vector is
    the layer of the two vectors. -/
theorem convCR_cast {N K Q : Nat} (msg x : (⟨2, ![N, K]⟩ : Shape).Idx → EReal) (dg : (⟨1, ![N]⟩ : Shape).Idx → EReal)
    (wl wr : (⟨2, ![K, Q]⟩ : Shape).Idx → EReal) (b : (⟨1, ![Q]⟩ : Shape).Idx → EReal)
    (h1 : (⟨1, ![N]⟩ : Shape).ShapeCasts ⟨2, ![N, 1]⟩) (h2 : (⟨1, ![Q]⟩ : Shape).ShapeCasts ⟨2, ![1, Q]⟩) :
    convCR msg x (shapeCast ⟨2, ![N, 1]⟩ dg h1) wl wr (shapeCast ⟨2, ![1, Q]⟩ b h2) = conv msg x dg wl wr b := by
  have hd : (fun i : (⟨1, ![N]⟩ : Shape).Idx => shapeCast ⟨2, ![N, 1]⟩ dg h1 (ix2 (n0 := N) (i 0) (0 : Fin 1))) = dg :=
    funext fun i => by
      obtain ⟨p, rfl⟩ : ∃ p : Fin N, i = ix1 p := ⟨i 0, eq_ix1 i⟩
      exact Cert.LibCols.shapeCast_a_a1_apply dg h1 p 0
  have hb : (fun i : (⟨1, ![Q]⟩ : Shape).Idx => shapeCast ⟨2, ![1, Q]⟩ b h2 (ix2 (n1 := Q) (0 : Fin 1) (i 0))) = b :=
    funext fun i => by
      obtain ⟨q, rfl⟩ : ∃ q : Fin Q, i = ix1 q := ⟨i 0, eq_ix1 i⟩
      exact shapeCast_a_1a_apply b h2 0 q
  unfold convCR
  rw [hd, hb]

variable (m : (ℓ : Loc nD τ sig) → Buf (Elt Ideal) ℓ) (ρ : Dev nD → PrngReg)

/-! ## What the first region finds -/

theorem V1_msg (c : Dev nD) : V1 m ρ c main_v17 = Cert.ReferenceIdeal.Target.msg1 (m ((c : Thread nD τ).loc main_arg0)) (m ((c : Thread nD τ).loc main_arg1)) := by
  show StableHlo.after hostOps0 (W0 m ρ c) (Proc.devRef .tc main_v17) = _
  after_results_simp
  rfl

theorem V1_deg (c : Dev nD) :
    V1 m ρ c main_v18 = shapeCast S100000x1 (Cert.ReferenceIdeal.Target.deg (m ((c : Thread nD τ).loc main_arg1))) shapeCasts_S100000_S100000x1 := by
  show StableHlo.after hostOps0 (W0 m ρ c) (Proc.devRef .tc main_v18) = _
  after_results
  rfl

theorem V1_b (c : Dev nD) : V1 m ρ c main_v19 = shapeCast S1x64 (m ((c : Thread nD τ).loc main_arg3)) shapeCasts_S64_S1x64 := by
  show StableHlo.after hostOps0 (W0 m ρ c) (Proc.devRef .tc main_v19) = _
  after_results
  rfl

theorem V1_x (c : Dev nD) : V1 m ρ c main_arg0 = (m ((c : Thread nD τ).loc main_arg0)) := by
  show StableHlo.after hostOps0 (W0 m ρ c) (Proc.devRef .tc main_arg0) = _
  after_results

theorem V1_wl (c : Dev nD) : V1 m ρ c main_arg2 = (m ((c : Thread nD τ).loc main_arg2)) := by
  show StableHlo.after hostOps0 (W0 m ρ c) (Proc.devRef .tc main_arg2) = _
  after_results

theorem V1_wr (c : Dev nD) : V1 m ρ c main_arg4 = (m ((c : Thread nD τ).loc main_arg4)) := by
  show StableHlo.after hostOps0 (W0 m ρ c) (Proc.devRef .tc main_arg4) = _
  after_results

/-- After the first region its output array holds the hidden features. -/
theorem W2_hid (c : Dev nD) : W2 m ρ c (Proc.devRef .tc main_v20)
    = Cert.ReferenceIdeal.Target.hid (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 6).trans (Cert.KernelIdeal.Region0.final (V1 m ρ) c)).trans ?_
  unfold Cert.KernelIdeal.Region0.layer
  rw [V1_msg m ρ c, V1_x m ρ c, V1_deg m ρ c, V1_wl m ρ c, V1_wr m ρ c, V1_b m ρ c]
  unfold hiddenCR
  rw [convCR_cast]
  rfl

/-! ## What the first region leaves of the rest -/

theorem W2_src (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

theorem W2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

theorem W2_deg (c : Dev nD) : W2 m ρ c (Proc.devRef .tc main_v7) = Cert.ReferenceIdeal.Target.deg (m ((c : Thread nD τ).loc main_arg1)) :=
  (W2_of_ne m ρ c main_v7 (by decide)).trans (by
    show StableHlo.after hostOps0 (W0 m ρ c) (Proc.devRef .tc main_v7) = _
    after_results
    rfl)

theorem W2_wl (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)

theorem W2_b (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)

theorem W2_wr (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)

/-! ## What the second region finds -/

theorem V3_msg (c : Dev nD) :
    V3 m ρ c main_v30 = Cert.ReferenceIdeal.Target.msg2 (W2 m ρ c (Proc.devRef .tc main_v20)) (m ((c : Thread nD τ).loc main_arg1)) := by
  show StableHlo.after hostOps1 (W2 m ρ c) (Proc.devRef .tc main_v30) = _
  after_results
  rw [W2_src m ρ c, W2_dst m ρ c]
  rfl

theorem V3_deg (c : Dev nD) :
    V3 m ρ c main_v31 = shapeCast S100000x1 (Cert.ReferenceIdeal.Target.deg (m ((c : Thread nD τ).loc main_arg1))) shapeCasts_S100000_S100000x1 := by
  show StableHlo.after hostOps1 (W2 m ρ c) (Proc.devRef .tc main_v31) = _
  after_results
  rw [W2_deg m ρ c]
  rfl

theorem V3_b (c : Dev nD) : V3 m ρ c main_v32 = shapeCast S1x40 (m ((c : Thread nD τ).loc main_arg6)) shapeCasts_S40_S1x40 := by
  show StableHlo.after hostOps1 (W2 m ρ c) (Proc.devRef .tc main_v32) = _
  after_results
  rw [W2_b m ρ c]
  rfl

theorem V3_h (c : Dev nD) : V3 m ρ c main_v20 = W2 m ρ c (Proc.devRef .tc main_v20) := by
  show StableHlo.after hostOps1 (W2 m ρ c) (Proc.devRef .tc main_v20) = _
  after_results

theorem V3_wl (c : Dev nD) : V3 m ρ c main_arg5 = (m ((c : Thread nD τ).loc main_arg5)) := by
  show StableHlo.after hostOps1 (W2 m ρ c) (Proc.devRef .tc main_arg5) = _
  after_results
  exact W2_wl m ρ c

theorem V3_wr (c : Dev nD) : V3 m ρ c main_arg7 = (m ((c : Thread nD τ).loc main_arg7)) := by
  show StableHlo.after hostOps1 (W2 m ρ c) (Proc.devRef .tc main_arg7) = _
  after_results
  exact W2_wr m ρ c

/-- After the second region its output array holds the network's output. -/
theorem W4_out (c : Dev nD) : W4 m ρ c (Proc.devRef .tc main_v33)
    = Cert.ReferenceIdeal.Target.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 6).trans (Cert.KernelIdeal.Region1.final (V3 m ρ) c)).trans ?_
  unfold Cert.KernelIdeal.Region1.layer
  rw [V3_msg m ρ c, V3_h m ρ c, V3_deg m ρ c, V3_wl m ρ c, V3_wr m ρ c, V3_b m ρ c, W2_hid m ρ c, convCR_cast]
  rfl

end Cert.KernelIdeal.Through

end
-- ==== Proof.KRun.lean ====
/-
  The kernel program's run, with whatever is wanted of the final memory.

  The program is four segments — host operations, a pallas region, host operations, a pallas region — and the
  generated frame proof assembles them: it tracks the contents of every unscoped buffer at each segment boundary and
  reads the last of these (`W4`) against the final state. Here the same assembly is stated once for ANY property of
  the final memory that follows from those final contents, so that the result array can be read off it beside the
  argument arrays.
-/
import proofs.«170759_j8967891714111_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of the program terminates, nothing faulting, in a memory with any property `Q` that
    holds of every memory whose unscoped buffers are at the last boundary's contents. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

end Cert.KernelIdeal.KRun

end
-- ==== Proof.lean ====
/-
  A two-layer graph convolution with mean aggregation (100000 nodes, 600000 edges, 128 → 64 → 40 features), as a
  kernel program and as a plain reference, are the same function of their arguments on the extended reals.

  Both programs gather each edge's source row, scatter-add it into the edge's target row, and count the edges into
  each node; these gathers and scatter-adds depend on the edge list's values and are the same host operations of the
  same arguments in both programs, so they are carried as terms and never opened. What differs is the dense part of
  each layer — divide the summed messages by the in-degree (at least one), multiply by the neighbour weights, add the
  bias, add the node's own features times the root weights, and in the first layer take the logistic function. The
  reference does it on whole arrays with `dot_general`; the kernel program does it in two pallas regions, each over
  twenty blocks of 5000 nodes, with matrix products into zero accumulators. An output entry depends only on its own
  node's rows, a matrix product at an entry is the plain sum over the contraction index in either spelling, and the
  twenty blocks tile the array: so each region leaves exactly the layer (`Cert.Sage.conv`), and the two programs end
  with equal results. No law that needs finiteness is used, so the precondition is never opened.

  The modules: `Spec` (one layer, entry by entry), `LibGraphConv` with `LibDot`, `LibRows`, `LibCols` (the two
  spellings of a layer's entry), `Bodies` (what each kernel body stores), `Region0` / `Region1` (what each region
  leaves in its output array), `Target` (the reference read as two layers), `Through` (the kernel program read through
  its host operations and regions), `KRun` (its run with a property of the final memory).
-/
import proofs.«170759_j8967891714111_1_alg».proof.Defs
import proofs.«170759_j8967891714111_1_alg».proof.Proof.Gen.Kernel
import proofs.«170759_j8967891714111_1_alg».proof.Proof.Gen.Kernel.Skeleton
import proofs.«170759_j8967891714111_1_alg».proof.Proof.Gen.Kernel.Launch
import proofs.«170759_j8967891714111_1_alg».proof.Proof.Gen.Kernel.Points
import proofs.«170759_j8967891714111_1_alg».proof.Proof.Gen.Kernel.Frame
import proofs.«170759_j8967891714111_1_alg».proof.Proof.Gen.KernelIdeal
import proofs.«170759_j8967891714111_1_alg».proof.Proof.Gen.KernelIdeal.Skeleton
import proofs.«170759_j8967891714111_1_alg».proof.Proof.Gen.KernelIdeal.Launch
import proofs.«170759_j8967891714111_1_alg».proof.Proof.Gen.KernelIdeal.Points
import proofs.«170759_j8967891714111_1_alg».proof.Proof.Gen.KernelIdeal.Frame
import proofs.«170759_j8967891714111_1_alg».proof.Proof.Gen.ReferenceIdeal
import proofs.«170759_j8967891714111_1_alg».proof.Proof.Gen.Pre_finite_inputs
import proofs.«170759_j8967891714111_1_alg».proof.Proof.Gen.ReferenceIdeal.Run
import proofs.«170759_j8967891714111_1_alg».proof.Proof.Gen.ReferenceIdeal.Read
import proofs.«170759_j8967891714111_1_alg».proof.Proof.Target
import proofs.«170759_j8967891714111_1_alg».proof.Proof.Through
import proofs.«170759_j8967891714111_1_alg».proof.Proof.KRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program ends with the network's output in its result array and its arguments as launched:
    the last boundary's contents read at the result (the second region's output array) and at each argument. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v33)
          = Cert.ReferenceIdeal.Target.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  Cert.KernelIdeal.KRun.run_post m ρ fun s h c =>
    ⟨(h c _ (Cert.KernelIdeal.Gen.mem_uc Cert.KernelIdeal.main_v33 (by decide))).trans (Cert.KernelIdeal.Through.W4_out m ρ c),
     (h c _ (Cert.KernelIdeal.Gen.mem_uc Cert.KernelIdeal.main_arg0 (by decide))).trans (Cert.KernelIdeal.Gen.W4_main_arg0 m ρ c),
     (h c _ (Cert.KernelIdeal.Gen.mem_uc Cert.KernelIdeal.main_arg1 (by decide))).trans (Cert.KernelIdeal.Gen.W4_main_arg1 m ρ c),
     (h c _ (Cert.KernelIdeal.Gen.mem_uc Cert.KernelIdeal.main_arg2 (by decide))).trans (Cert.KernelIdeal.Gen.W4_main_arg2 m ρ c),
     (h c _ (Cert.KernelIdeal.Gen.mem_uc Cert.KernelIdeal.main_arg3 (by decide))).trans (Cert.KernelIdeal.Gen.W4_main_arg3 m ρ c),
     (h c _ (Cert.KernelIdeal.Gen.mem_uc Cert.KernelIdeal.main_arg4 (by decide))).trans (Cert.KernelIdeal.Gen.W4_main_arg4 m ρ c),
     (h c _ (Cert.KernelIdeal.Gen.mem_uc Cert.KernelIdeal.main_arg5 (by decide))).trans (Cert.KernelIdeal.Gen.W4_main_arg5 m ρ c),
     (h c _ (Cert.KernelIdeal.Gen.mem_uc Cert.KernelIdeal.main_arg6 (by decide))).trans (Cert.KernelIdeal.Gen.W4_main_arg6 m ρ c),
     (h c _ (Cert.KernelIdeal.Gen.mem_uc Cert.KernelIdeal.main_arg7 (by decide))).trans (Cert.KernelIdeal.Gen.W4_main_arg7 m ρ c)⟩

/-- From memories that agree on the arguments both programs end with the network's output: the kernel program by
    `kernel_run`, the reference by its run, whose result term is the same output (`Target.result_eq`). -/
theorem algebraic : Cert.algebraic_KernelIdeal_ReferenceIdeal := by
  intro m ρ m' ρ' _ hagree
  refine ⟨fun c => Cert.ReferenceIdeal.Target.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v63_eq, Cert.ReferenceIdeal.Target.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
